-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x512x1024 .f32) (main_arg1 : FVec F S1024 .f32) (main_arg2 : FVec F S1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x512x1024 : Shape := ⟨3, ![32, 512, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S32x512x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x1024_S16384x1024 : S32x512x1024.ShapeCasts S16384x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S32x512x1024 : S16384x1024.ShapeCasts S32x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S32x512x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x1024_S16384x1024 : S32x512x1024.ShapeCasts S16384x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x1024_S32x512x1024 : S16384x1024.ShapeCasts S32x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.RowMath.lean ====
/-
  The arithmetic of one row, on the extended reals.

  A row x of 1024 entries is normalised in two ways.  The first takes the two sums s = Σ x and q = Σ x² in
  one pass, scales each by the word 2⁻¹⁰ (which denotes the rational 1/1024), and forms the variance as
  q/1024 − (s/1024)².  The second divides s by the word 1024.0, centres the row, and takes the mean of the
  squares of the centred entries.  Both then multiply the centred entry by rsqrt (variance + ε) (the same word ε),
  scale by a weight and add a bias.

  The two means agree on every extended real: dividing by the real 1024 is multiplying by 1/1024.  The two variances
  agree when the entries are real numbers: Σ (x − μ)² = Σ x² − 2 μ Σ x + 1024 μ², and with μ = (Σ x)/1024 this is
  Σ x² − 1024 μ².  That expansion distributes a product over a sum and cancels, which is why the entries must be
  finite: on the extended reals it can fail at an infinity.
-/
import Idealize.ShloMosaic.PureOps.Ideal

noncomputable section

open Idealize.ShloMosaic
open scoped BigOperators

namespace Cert.LayerNorm

/-! ## The three words the two programs spell -/

/-- The word 0x3A800000 is 2⁻¹⁰: the rational 1/1024. -/
theorem ofBits_inv1024 : Ideal.ofBits .f32 0x3A800000#32 = ((1 / 1024 : ℝ) : EReal) := by
  simp [Ideal.ofBits, Ideal.ieee, -EReal.coe_mul]; norm_num

/-- The word 0x44800000 is the real 1024. -/
theorem ofBits_1024 : Ideal.ofBits .f32 0x44800000#32 = ((1024 : ℝ) : EReal) := by
  simp [Ideal.ofBits, Ideal.ieee, -EReal.coe_mul]; norm_num

/-- ε, the same word in both programs; its value is never needed. -/
abbrev eps : EReal := Ideal.ofBits .f32 0x358637BD#32

/-! ## The two normalisations of a row -/

/-- Mean by the scaled sum. -/
def meanS (x : Fin 1024 → EReal) : EReal := (∑ k, x k) * Ideal.ofBits .f32 0x3A800000#32

/-- Variance as the scaled sum of squares less the squared mean. -/
def varS (x : Fin 1024 → EReal) : EReal :=
  (∑ k, x k * x k) * Ideal.ofBits .f32 0x3A800000#32 - meanS x * meanS x

/-- The normalised entry, one-pass form: xq is the row's entry at the column, w and b the column's weight and bias. -/
def normS (x : Fin 1024 → EReal) (xq w b : EReal) : EReal :=
  (xq - meanS x) * Ideal.rsqrt (varS x + eps) * w + b

/-- Mean by the quotient. -/
def meanD (x : Fin 1024 → EReal) : EReal := Ideal.div (∑ k, x k) (Ideal.ofBits .f32 0x44800000#32)

/-- Variance as the mean of the centred squares. -/
def varD (x : Fin 1024 → EReal) : EReal :=
  Ideal.div (∑ k, (x k - meanD x) * (x k - meanD x)) (Ideal.ofBits .f32 0x44800000#32)

/-- The normalised entry, two-pass form. -/
def normD (x : Fin 1024 → EReal) (xq w b : EReal) : EReal :=
  (xq - meanD x) * Ideal.rsqrt (varD x + eps) * w + b

/-! ## They agree -/

/-- The two means are one extended real, whatever the row. -/
theorem meanD_eq_meanS (x : Fin 1024 → EReal) : meanD x = meanS x := by
  unfold meanD meanS
  rw [ofBits_1024, ofBits_inv1024, Ideal.div_coe (by norm_num : (1024 : ℝ) ≠ 0)]

/-- A finite sum of real numbers, read in the extended reals, is the real sum. -/
theorem coe_sum {ι : Type*} (s : Finset ι) (r : ι → ℝ) : (∑ k ∈ s, ((r k : ℝ) : EReal)) = ((∑ k ∈ s, r k : ℝ) : EReal) := by
  classical
  induction s using Finset.induction_on with
  | empty => simp
  | insert a s ha ih => rw [Finset.sum_insert ha, Finset.sum_insert ha, ih, EReal.coe_add]

/-- The expansion of the centred squares, over the reals. -/
theorem real_var (r : Fin 1024 → ℝ) :
    (∑ k, (r k - (∑ k, r k) * (1 / 1024)) * (r k - (∑ k, r k) * (1 / 1024))) * (1 / 1024)
      = (∑ k, r k * r k) * (1 / 1024) - (∑ k, r k) * (1 / 1024) * ((∑ k, r k) * (1 / 1024)) := by
  generalize hS : (∑ k, r k) = S
  have h : ∑ k, (r k - S * (1 / 1024)) * (r k - S * (1 / 1024))
      = (∑ k, r k * r k) - 2 * (S * (1 / 1024)) * S + 1024 * ((S * (1 / 1024)) * (S * (1 / 1024))) := by
    have e : ∀ k, (r k - S * (1 / 1024)) * (r k - S * (1 / 1024))
        = r k * r k - 2 * (S * (1 / 1024)) * r k + (S * (1 / 1024)) * (S * (1 / 1024)) := fun k => by ring
    rw [Finset.sum_congr rfl fun k _ => e k, Finset.sum_add_distrib, Finset.sum_sub_distrib, ← Finset.mul_sum, hS,
      Finset.sum_const, Finset.card_univ, Fintype.card_fin, nsmul_eq_mul]
    norm_num
  rw [h]
  ring

/-- The two variances agree on a row of real numbers. -/
theorem varD_eq_varS (x : Fin 1024 → EReal) (hx : ∀ k, ∃ r : ℝ, x k = (r : EReal)) : varD x = varS x := by
  choose r hr using hx
  have hx' : x = fun k => ((r k : ℝ) : EReal) := funext hr
  unfold varD varS
  rw [meanD_eq_meanS]
  unfold meanS
  rw [ofBits_1024, ofBits_inv1024, Ideal.div_coe (by norm_num : (1024 : ℝ) ≠ 0), hx']
  simp only [coe_sum, ← EReal.coe_mul, ← EReal.coe_sub]
  exact congrArg _ (real_var r)

/-- So the two normalisations agree on a row of real numbers. -/
theorem normD_eq_normS (x : Fin 1024 → EReal) (hx : ∀ k, ∃ r : ℝ, x k = (r : EReal)) (xq w b : EReal) :
    normD x xq w b = normS x xq w b := by
  unfold normD normS
  rw [meanD_eq_meanS, varD_eq_varS x hx]

end Cert.LayerNorm

end
-- ==== Proof.Columns.lean ====
/-
  Three operations on a column of per-row statistics, each read at an index given by coordinates.

  A sum over the lanes of an [a, b] vector leaves one number per row; keeping the reduced axis as a unit axis views
  those numbers as an [a, 1] column; broadcasting the column back over the lanes gives every entry of a row its row's
  number.  Read at row p: the sum is the sum over the b columns of the entries of row p, the column holds at (p, 0)
  what the vector of row values holds at p, and the broadcast holds at (p, q) what the column holds at (p, 0).
-/
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.LayerNorm

variable {α : Type}

/-- An [a] vector viewed as an [a, 1] column reads, at (p, z), the vector at p. -/
theorem shapeCast_col_apply {a : ℕ} (u : (⟨1, ![a]⟩ : Shape).Idx → α)
    (h : (⟨1, ![a]⟩ : Shape).ShapeCasts ⟨2, ![a, 1]⟩) (p : Fin a) (z : Fin 1) :
    shapeCast ⟨2, ![a, 1]⟩ u h (ix2 p z) = u (ix1 p) :=
  shapeCast_apply u h _ _ (by
    have hz : z.val = 0 := by omega
    rw [Shape.rowMajor_val_one, Shape.rowMajor_val_two]
    show p.val = p.val * 1 + z.val
    rw [hz, Nat.mul_one, Nat.add_zero])

/-- An [a, 1] column broadcast over b lanes reads, at (p, q), the column at (p, 0). -/
theorem broadcastTo_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum over the lanes of an [a, b] vector of extended reals reads, at row p, the sum over the b columns of the
    entries of row p. -/
theorem laneSum_apply {a b : ℕ} (src : (⟨2, ![a, b]⟩ : Shape).Idx → EReal)
    (h : (⟨2, ![a, b]⟩ : Shape).Reduces [1] ⟨1, ![a]⟩) (p : Fin a) :
    Ideal.reduceAdd h src (ix1 p) = ∑ k : Fin b, src (ix2 p k) := by
  refine (Ideal.reduceAdd_single h src (ix1 p)).trans ?_
  refine Finset.sum_congr rfl fun k _ => congrArg src (funext fun d => Fin.ext ?_)
  match d with
  | ⟨0, _⟩ => rfl
  | ⟨1, _⟩ => rfl

end Cert.LayerNorm

end
-- ==== Proof.KernelRow.lean ====
/-
  What the one-pass body stores, entry by entry.

  The body loads a block of 512 rows, the weight row and the bias row, and stores one block.  Its stored value at
  (p, q) depends on row p of the block only: the two lane sums of the row and of its squares, each scaled by 2⁻¹⁰,
  give the mean and the variance; the entry at (p, q), centred and multiplied by rsqrt (variance + ε), is scaled by
  the weight at column q and shifted by the bias at column q.  That is the one-pass normalisation of the row.
-/
import proofs.«151484_g2000305710958396_pallaspilot1_78_2_alg».proof.Proof.Gen.KernelIdeal.Skeleton
import proofs.«151484_g2000305710958396_pallaspilot1_78_2_alg».proof.Proof.RowMath
import proofs.«151484_g2000305710958396_pallaspilot1_78_2_alg».proof.Proof.Columns
import Idealize.ShloMosaic.Lib.ValueLayout

noncomputable section

open Idealize.ShloMosaic Idealize.ShloMosaic.ValueIdx
open scoped BigOperators

namespace Cert.KernelIdeal.RowValue

open Cert.KernelIdeal Cert.KernelIdeal.Gen Cert.LayerNorm

/-- The reciprocal square root of a vector, entry by entry. -/
theorem rsqrt_apply {s : Shape} (a : FVec Ideal s .f32) (i : s.Idx) : rsqrt a i = Ideal.rsqrt (a i) := rfl

/-- The stored value at (p, q) is the one-pass normalisation of row p of the loaded block, at the weight and bias of
    column q. -/
theorem stored_apply (x0 : Vec Ideal S512x1024 .f32) (x1 x2 : Vec Ideal S1x1024 .f32) (p : Fin 512) (q : Fin 1024) :
    k0_pay1 (F := Ideal) x0 x1 x2 (ix2 p q)
      = normS (fun k => x0 (ix2 p k)) (x0 (ix2 p q)) (x1 (ix2 (0 : Fin 1) q)) (x2 (ix2 (0 : Fin 1) q)) := by
  unfold k0_pay1
  simp only [shapeCast_self]
  simp only [addf_apply, mulf_apply, subf_apply, broadcast_apply, rsqrt_apply, broadcastTo_col_apply,
    broadcastTo_1b_ab_apply, shapeCast_col_apply, Ideal.ofBits_def, multiReduction, Ideal.reduceAdd_def, laneSum_apply]
  rfl

end Cert.KernelIdeal.RowValue

end
-- ==== Proof.Rows.lean ====
/-
  The result as one function of the three argument arrays.

  Both programs view the [32, 512, 1024] input as 16384 rows of 1024 entries, the weight and the bias as one row of
  1024 entries each, normalise every row, and view the 16384 rows as [32, 512, 1024] again.  Entry (r, q) of the
  normalised rows depends on row r of the input and on column q of the weight and of the bias.  The one-pass and the
  two-pass normalisations give two such whole-array functions; they are equal when every entry of the input is a real
  number, row by row.
-/
import proofs.«151484_g2000305710958396_pallaspilot1_78_2_alg».proof.Proof.RowMath
import Idealize.ShloMosaic.Lib.ValueIdx

noncomputable section

open Idealize.ShloMosaic Idealize.ShloMosaic.ValueIdx
open scoped BigOperators

namespace Cert.LayerNorm

/-- The input as given, the rows, one row, a vector of 1024 entries. -/
abbrev Cube : Shape := ⟨3, ![32, 512, 1024]⟩
abbrev Mat : Shape := ⟨2, ![16384, 1024]⟩
abbrev OneRow : Shape := ⟨2, ![1, 1024]⟩
abbrev Lane : Shape := ⟨1, ![1024]⟩

/-- Row r of the matrix, as a function of the column. -/
def rowOf (X : Mat.Idx → EReal) (r : Fin 16384) : Fin 1024 → EReal := fun k => X (ix2 r k)

/-- Every row normalised in one pass. -/
def rowsS (X : Mat.Idx → EReal) (W B : OneRow.Idx → EReal) : Mat.Idx → EReal :=
  fun i => normS (rowOf X (i 0)) (X i) (W (ix2 (0 : Fin 1) (i 1))) (B (ix2 (0 : Fin 1) (i 1)))

/-- Every row normalised in two passes. -/
def rowsD (X : Mat.Idx → EReal) (W B : OneRow.Idx → EReal) : Mat.Idx → EReal :=
  fun i => normD (rowOf X (i 0)) (X i) (W (ix2 (0 : Fin 1) (i 1))) (B (ix2 (0 : Fin 1) (i 1)))

/-- On a matrix of real numbers the two agree. -/
theorem rowsD_eq_rowsS (X : Mat.Idx → EReal) (hX : ∀ i, ∃ r : ℝ, X i = (r : EReal)) (W B : OneRow.Idx → EReal) :
    rowsD X W B = rowsS X W B :=
  funext fun i => normD_eq_normS (rowOf X (i 0)) (fun k => hX (ix2 (i 0) k)) _ _ _

/-- The whole result, one-pass form: view as rows, normalise, view back. -/
def wholeS (h : Cube.ShapeCasts Mat) (h1 : Lane.ShapeCasts OneRow) (hb : Mat.ShapeCasts Cube)
    (A : Cube.Idx → EReal) (W B : Lane.Idx → EReal) : Cube.Idx → EReal :=
  shapeCast Cube (rowsS (shapeCast Mat A h) (shapeCast OneRow W h1) (shapeCast OneRow B h1)) hb

/-- The whole result, two-pass form. -/
def wholeD (h : Cube.ShapeCasts Mat) (h1 : Lane.ShapeCasts OneRow) (hb : Mat.ShapeCasts Cube)
    (A : Cube.Idx → EReal) (W B : Lane.Idx → EReal) : Cube.Idx → EReal :=
  shapeCast Cube (rowsD (shapeCast Mat A h) (shapeCast OneRow W h1) (shapeCast OneRow B h1)) hb

/-- On an input of real numbers the two whole results agree: the rows of the viewed input hold the input's entries. -/
theorem wholeD_eq_wholeS (h : Cube.ShapeCasts Mat) (h1 : Lane.ShapeCasts OneRow) (hb : Mat.ShapeCasts Cube)
    (A : Cube.Idx → EReal) (hA : ∀ i, ∃ r : ℝ, A i = (r : EReal)) (W B : Lane.Idx → EReal) :
    wholeD h h1 hb A W B = wholeS h h1 hb A W B := by
  unfold wholeD wholeS
  rw [rowsD_eq_rowsS (shapeCast Mat A h) (fun i => hA (Shape.reshapeEquiv h i))]

end Cert.LayerNorm

end
-- ==== Proof.KernelArray.lean ====
/-
  From blocks to the whole array, for the one-pass program.

  The grid has 32 points.  Point t reads rows 512 t … 512 t + 511 of the 16384 rows, the whole weight row and the whole
  bias row, and writes back rows 512 t … 512 t + 511 of the result.  What it writes back is the block of one function of
  the three arrays the region finds: every row normalised in one pass.  The 32 blocks tile the 16384 rows, so after
  the region the result array is that function.  The three arrays the region finds are views of the arguments (rows of
  the input, the weight and the bias as one row each), and the program's result is the view of the result array as
  [32, 512, 1024].
-/
import proofs.«151484_g2000305710958396_pallaspilot1_78_2_alg».proof.Proof.Gen.KernelIdeal.Frame
import proofs.«151484_g2000305710958396_pallaspilot1_78_2_alg».proof.Proof.KernelRow
import proofs.«151484_g2000305710958396_pallaspilot1_78_2_alg».proof.Proof.Rows
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.LayerNorm
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the 32 points: the input block and the output block of point t are both block t of the
    rows, the weight and the bias are always their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows the region finds, the weight row, the bias row. -/
abbrev X (c : Dev nD) : Mat.Idx → EReal := V m c main_v0
abbrev W (c : Dev nD) : OneRow.Idx → EReal := V m c main_v1
abbrev B (c : Dev nD) : OneRow.Idx → EReal := V m c main_v2

/-- Entry (p, k) of the input block of point t is entry (512 t + p, k) of the rows. -/
theorem read_rows (c : Dev nD) (t : Fin cfg0.N) (p : Fin 512) (k : Fin 1024) (r : Fin 16384)
    (hr : r.val = t.val * 512 + p.val) : iblk m c 0 t (ix2 p k) = X m c (ix2 r k) := by
  show V m c main_v0 (((cfg0.win 0).blk t).view.emb (ix2 p k)) = V m c main_v0 (ix2 r k)
  obtain ⟨e0, e1, -⟩ := index_facts t
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Entry (0, q) of the weight block of any point is entry (0, q) of the weight row. -/
theorem read_weight (c : Dev nD) (t : Fin cfg0.N) (q : Fin 1024) :
    iblk m c 1 t (ix2 (0 : Fin 1) q) = W m c (ix2 (0 : Fin 1) q) := by
  show V m c main_v1 (((cfg0.win 1).blk t).view.emb (ix2 (0 : Fin 1) q)) = V m c main_v1 (ix2 (0 : Fin 1) q)
  obtain ⟨-, -, e0, e1, -⟩ := index_facts t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * q.val = q.val; omega

/-- Entry (0, q) of the bias block of any point is entry (0, q) of the bias row. -/
theorem read_bias (c : Dev nD) (t : Fin cfg0.N) (q : Fin 1024) :
    iblk m c 2 t (ix2 (0 : Fin 1) q) = B m c (ix2 (0 : Fin 1) q) := by
  show V m c main_v2 (((cfg0.win 2).blk t).view.emb (ix2 (0 : Fin 1) q)) = V m c main_v2 (ix2 (0 : Fin 1) q)
  obtain ⟨-, -, -, -, e0, e1, -⟩ := index_facts t
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- What point t writes back is block t of the one-pass normalisation of the rows the region finds. -/
theorem flushed_eq (c : Dev nD) (t : Fin cfg0.N) :
    (dats m 0 c).flushed 3 t = ((cfg0.win 3).blk t).view.read (Elt Ideal) (rowsS (X m c) (W m c) (B m c)) := by
  show (cfg0.win 3).cut (grid0.coords t) ((dats m 0 c).after 3 t) = _
  rw [after0_3]
  unfold out0_3
  rw [View.canon_unit_zero zeros]
  simp only [View.ld_unit_zero (S := S512x1024) zeros, View.ld_unit_zero (S := S1x1024) zeros]
  funext j
  obtain ⟨p, q, rfl⟩ : ∃ (p : Fin 512) (q : Fin 1024), j = ix2 p q := ⟨j 0, j 1, eq_ix2 j⟩
  obtain ⟨-, -, -, -, -, -, e0, e1⟩ := index_facts t
  have ht : t.val < 32 := lt_of_lt_of_eq t.isLt N_0
  show k0_pay1 (F := Ideal) (iblk m c 0 t) (iblk m c 1 t) (iblk m c 2 t) (ix2 p q)
    = rowsS (X m c) (W m c) (B m c) (((cfg0.win 3).blk t).view.emb (ix2 p q))
  have hi : ((cfg0.win 3).blk t).view.emb (ix2 p q) = ix2 (⟨t.val * 512 + p.val, by omega⟩ : Fin 16384) q := by
    funext a; apply Fin.ext
    match a with
    | ⟨0, _⟩ => show win0_3.index t (0 : Fin 2) * 512 + 1 * p.val = t.val * 512 + p.val; omega
    | ⟨1, _⟩ => show win0_3.index t (1 : Fin 2) * 1024 + 1 * q.val = q.val; omega
  rw [hi]
  refine (RowValue.stored_apply _ _ _ p q).trans ?_
  unfold rowsS
  show normS _ _ _ _ = normS (rowOf (X m c) ⟨t.val * 512 + p.val, by omega⟩) (X m c (ix2 ⟨t.val * 512 + p.val, by omega⟩ q))
    (W m c (ix2 (0 : Fin 1) q)) (B m c (ix2 (0 : Fin 1) q))
  rw [read_weight, read_bias, read_rows m c t p q ⟨t.val * 512 + p.val, by omega⟩ rfl]
  refine congrArg (fun f => normS f _ _ _) (funext fun k => ?_)
  exact read_rows m c t p k ⟨t.val * 512 + p.val, by omega⟩ rfl

/-- An index of the result array is in point t's block iff each coordinate is in the block's range on its axis. -/
theorem mem_block (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every entry of the result array is in the block of the point that holds its row: row r is in block r / 512. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_3 _, ?_⟩
  rw [mem_block]
  obtain ⟨-, -, -, -, -, -, e0, e1⟩ := index_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 1024 ≤ (i 1).val ∧ (i 1).val < win0_3.index _ (1 : Fin 2) * 1024 + 1024
    rw [e1]; omega

/-- After the region the result array is the one-pass normalisation of the rows the region finds. -/
theorem final (c : Dev nD) : (dats m 0 c).arrAt 3 cfg0.N = rowsS (X m c) (W m c) (B m c) :=
  (dats m 0 c).arrAt_eq_of_cover 3 (rowsS (X m c) (W m c) (B m c)) (fun t _ => flushed_eq m c t) covered

end Cert.KernelIdeal.ArrayValue

end
-- ==== Proof.KernelRun.lean ====
/-
  The one-pass program's run, with its result named.

  Before the region the program views the input as 16384 rows and the weight and the bias as one row each; after the
  region it views the result array as [32, 512, 1024].  So every weakly fair execution ends with the result holding
  the one-pass whole-array function of the three arguments, and with the arguments as launched.
-/
import proofs.«151484_g2000305710958396_pallaspilot1_78_2_alg».proof.Proof.KernelArray

noncomputable section

namespace Cert.KernelIdeal.ArrayValue

open Cert.KernelIdeal Cert.KernelIdeal.Gen Idealize.ShloMosaic Idealize.ShloMosaic.TcCoe Idealize.SL.Sem
open Idealize.ShloMosaic.ValueIdx Cert.LayerNorm Idealize.ShloMosaic.StableHlo
open Idealize.ShloMosaic.Pipeline (Dat)

variable (m : (ℓ : Loc nD τ sig) → Buf (Elt Ideal) ℓ) (ρ : Dev nD → PrngReg)

/-- The rows the region finds are the input viewed as rows. -/
theorem rows_eq (c : Dev nD) :
    X m c = shapeCast Mat (m ((c : Thread nD τ).loc main_arg0)) shapeCasts_S32x512x1024_S16384x1024 := by
  show StableHlo.after hostOps0 (fun b => m (c, b)) (Proc.devRef .tc main_v0) = _
  after_results
  rfl

/-- The weight row the region finds is the weight viewed as one row. -/
theorem weight_eq (c : Dev nD) :
    W m c = shapeCast OneRow (m ((c : Thread nD τ).loc main_arg1)) shapeCasts_S1024_S1x1024 := by
  show StableHlo.after hostOps0 (fun b => m (c, b)) (Proc.devRef .tc main_v1) = _
  after_results
  rfl

/-- The bias row the region finds is the bias viewed as one row. -/
theorem bias_eq (c : Dev nD) :
    B m c = shapeCast OneRow (m ((c : Thread nD τ).loc main_arg2)) shapeCasts_S1024_S1x1024 := by
  show StableHlo.after hostOps0 (fun b => m (c, b)) (Proc.devRef .tc main_v2) = _
  after_results
  rfl

/-- The program's result after the lines that follow the region. -/
theorem result_eq (c : Dev nD) :
    Pipeline.afterTail₀ cfgs (dats m) 0 (V0 m) [hostOps1] c main_v4
      = wholeS shapeCasts_S32x512x1024_S16384x1024 shapeCasts_S1024_S1x1024 shapeCasts_S16384x1024_S32x512x1024
          (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = rowsS (X m c) (W m c) (B m c) :=
    (Pipeline.withArrays_arr spec0 launch0.win.arr_inj c _ _ 3).trans (final m c)
  rw [hw, rows_eq, weight_eq, bias_eq]
  rfl

/-- Every weakly fair execution of the one-pass program terminates with its result at the one-pass whole-array function
    of the arguments and the arguments as launched. -/
theorem run : θ_run defs (onTc (τ := τ) (main (F := Ideal))) ⟨m, fun _ => 0, ρ⟩ fun r => ∀ c : Dev nD,
      r.2.mem ((c : Thread nD τ).loc main_v4)
        = wholeS shapeCasts_S32x512x1024_S16384x1024 shapeCasts_S1024_S1x1024 shapeCasts_S16384x1024_S32x512x1024
            (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue

end
-- ==== Proof.ReferenceRow.lean ====
/-
  What the two-pass body stores, entry by entry.

  The body loads a block of 1024 rows, the weight row and the bias row, and stores one block.  Its stored value at
  (p, q) depends on row p of the block only: the lane sum of the row divided by 1024 is the mean; the row is centred;
  the lane sum of the squares of the centred row divided by 1024 is the variance; the centred entry at (p, q),
  multiplied by rsqrt (variance + ε), is scaled by the weight at column q and shifted by the bias at column q.  That
  is the two-pass normalisation of the row.
-/
import proofs.«151484_g2000305710958396_pallaspilot1_78_2_alg».proof.Proof.Gen.ReferenceIdeal.Skeleton
import proofs.«151484_g2000305710958396_pallaspilot1_78_2_alg».proof.Proof.RowMath
import proofs.«151484_g2000305710958396_pallaspilot1_78_2_alg».proof.Proof.Columns
import Idealize.ShloMosaic.Lib.ValueLayout

noncomputable section

open Idealize.ShloMosaic Idealize.ShloMosaic.ValueIdx
open scoped BigOperators

namespace Cert.ReferenceIdeal.RowValue

open Cert.ReferenceIdeal Cert.ReferenceIdeal.Gen Cert.LayerNorm

/-- The reciprocal square root of a vector, entry by entry. -/
theorem rsqrt_apply {s : Shape} (a : FVec Ideal s .f32) (i : s.Idx) : rsqrt a i = Ideal.rsqrt (a i) := rfl

/-- The stored value at (p, q) is the two-pass normalisation of row p of the loaded block, at the weight and bias of
    column q. -/
theorem stored_apply (x0 : Vec Ideal S1024x1024 .f32) (x1 x2 : Vec Ideal S1x1024 .f32) (p : Fin 1024) (q : Fin 1024) :
    k0_pay1 (F := Ideal) x0 x1 x2 (ix2 p q)
      = normD (fun k => x0 (ix2 p k)) (x0 (ix2 p q)) (x1 (ix2 (0 : Fin 1) q)) (x2 (ix2 (0 : Fin 1) q)) := by
  unfold k0_pay1
  simp only [shapeCast_self]
  simp only [addf_apply, mulf_apply, subf_apply, divf_apply, broadcast_apply, rsqrt_apply, broadcastTo_col_apply,
    broadcastTo_1b_ab_apply, shapeCast_col_apply, Ideal.ofBits_def, multiReduction, Ideal.reduceAdd_def, laneSum_apply]
  rfl

end Cert.ReferenceIdeal.RowValue

end
-- ==== Proof.ReferenceArray.lean ====
/-
  From blocks to the whole array, for the two-pass program.

  The grid has 16 points.  Point t reads rows 1024 t … 1024 t + 1023 of the 16384 rows, the whole weight row and the
  whole bias row, and writes back rows 1024 t … 1024 t + 1023 of the result.  What it writes back is the block of one
  function of the three arrays the region finds: every row normalised in two passes.  The 16 blocks tile the 16384
  rows, so after the region the result array is that function.
-/
import proofs.«151484_g2000305710958396_pallaspilot1_78_2_alg».proof.Proof.Gen.ReferenceIdeal.Frame
import proofs.«151484_g2000305710958396_pallaspilot1_78_2_alg».proof.Proof.ReferenceRow
import proofs.«151484_g2000305710958396_pallaspilot1_78_2_alg».proof.Proof.Rows
import Idealize.ShloMosaic.Lib.Pipeline.Value
import Idealize.ShloMosaic.Lib.StableHlo.Run

noncomputable section

namespace Cert.ReferenceIdeal.ArrayValue

open Cert.ReferenceIdeal Cert.ReferenceIdeal.Gen Idealize.ShloMosaic Idealize.ShloMosaic.TcCoe Idealize.SL.Sem
open Idealize.ShloMosaic.ValueIdx Cert.LayerNorm
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the 16 points: the input block and the output block of point t are both block t of the
    rows, the weight and the bias are always their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows the region finds, the weight row, the bias row. -/
abbrev X (c : Dev nD) : Mat.Idx → EReal := V m c main_v0
abbrev W (c : Dev nD) : OneRow.Idx → EReal := V m c main_v1
abbrev B (c : Dev nD) : OneRow.Idx → EReal := V m c main_v2

/-- Entry (p, k) of the input block of point t is entry (1024 t + p, k) of the rows. -/
theorem read_rows (c : Dev nD) (t : Fin cfg0.N) (p : Fin 1024) (k : Fin 1024) (r : Fin 16384)
    (hr : r.val = t.val * 1024 + p.val) : iblk m c 0 t (ix2 p k) = X m c (ix2 r k) := by
  show V m c main_v0 (((cfg0.win 0).blk t).view.emb (ix2 p k)) = V m c main_v0 (ix2 r k)
  obtain ⟨e0, e1, -⟩ := index_facts t
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Entry (0, q) of the weight block of any point is entry (0, q) of the weight row. -/
theorem read_weight (c : Dev nD) (t : Fin cfg0.N) (q : Fin 1024) :
    iblk m c 1 t (ix2 (0 : Fin 1) q) = W m c (ix2 (0 : Fin 1) q) := by
  show V m c main_v1 (((cfg0.win 1).blk t).view.emb (ix2 (0 : Fin 1) q)) = V m c main_v1 (ix2 (0 : Fin 1) q)
  obtain ⟨-, -, e0, e1, -⟩ := index_facts t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 1024 + 1 * q.val = q.val; omega

/-- Entry (0, q) of the bias block of any point is entry (0, q) of the bias row. -/
theorem read_bias (c : Dev nD) (t : Fin cfg0.N) (q : Fin 1024) :
    iblk m c 2 t (ix2 (0 : Fin 1) q) = B m c (ix2 (0 : Fin 1) q) := by
  show V m c main_v2 (((cfg0.win 2).blk t).view.emb (ix2 (0 : Fin 1) q)) = V m c main_v2 (ix2 (0 : Fin 1) q)
  obtain ⟨-, -, -, -, e0, e1, -⟩ := index_facts t
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

/-- What point t writes back is block t of the two-pass normalisation of the rows the region finds. -/
theorem flushed_eq (c : Dev nD) (t : Fin cfg0.N) :
    (dats m 0 c).flushed 3 t = ((cfg0.win 3).blk t).view.read (Elt Ideal) (rowsD (X m c) (W m c) (B m c)) := by
  show (cfg0.win 3).cut (grid0.coords t) ((dats m 0 c).after 3 t) = _
  rw [after0_3]
  unfold out0_3
  rw [View.canon_unit_zero zeros]
  simp only [View.ld_unit_zero (S := S1024x1024) zeros, View.ld_unit_zero (S := S1x1024) zeros]
  funext j
  obtain ⟨p, q, rfl⟩ : ∃ (p : Fin 1024) (q : Fin 1024), j = ix2 p q := ⟨j 0, j 1, eq_ix2 j⟩
  obtain ⟨-, -, -, -, -, -, e0, e1⟩ := index_facts t
  have ht : t.val < 16 := lt_of_lt_of_eq t.isLt N_0
  show k0_pay1 (F := Ideal) (iblk m c 0 t) (iblk m c 1 t) (iblk m c 2 t) (ix2 p q)
    = rowsD (X m c) (W m c) (B m c) (((cfg0.win 3).blk t).view.emb (ix2 p q))
  have hi : ((cfg0.win 3).blk t).view.emb (ix2 p q) = ix2 (⟨t.val * 1024 + p.val, by omega⟩ : Fin 16384) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  rw [hi]
  refine (RowValue.stored_apply _ _ _ p q).trans ?_
  unfold rowsD
  show normD _ _ _ _ = normD (rowOf (X m c) ⟨t.val * 1024 + p.val, by omega⟩) (X m c (ix2 ⟨t.val * 1024 + p.val, by omega⟩ q))
    (W m c (ix2 (0 : Fin 1) q)) (B m c (ix2 (0 : Fin 1) q))
  rw [read_weight, read_bias, read_rows m c t p q ⟨t.val * 1024 + p.val, by omega⟩ rfl]
  refine congrArg (fun f => normD f _ _ _) (funext fun k => ?_)
  exact read_rows m c t p k ⟨t.val * 1024 + p.val, by omega⟩ rfl

/-- An index of the result array is in point t's block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every entry of the result array is in the block of the point that holds its row: row r is in block r / 1024. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  refine ⟨⟨(i 0).val / 1024, by rw [hN]; omega⟩, flush0_3 _, ?_⟩
  rw [mem_block]
  obtain ⟨-, -, -, -, -, -, e0, e1⟩ := index_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- After the region the result array is the two-pass normalisation of the rows the region finds. -/
theorem final (c : Dev nD) : (dats m 0 c).arrAt 3 cfg0.N = rowsD (X m c) (W m c) (B m c) :=
  (dats m 0 c).arrAt_eq_of_cover 3 (rowsD (X m c) (W m c) (B m c)) (fun t _ => flushed_eq m c t) covered

end Cert.ReferenceIdeal.ArrayValue

end
-- ==== Proof.ReferenceRun.lean ====
/-
  The two-pass program's run, with its result named.

  Before the region the program views the input as 16384 rows and the weight and the bias as one row each; after the
  region it views the result array as [32, 512, 1024].  So every weakly fair execution ends with the result holding
  the two-pass whole-array function of the three arguments, and with the arguments as launched.
-/
import proofs.«151484_g2000305710958396_pallaspilot1_78_2_alg».proof.Proof.ReferenceArray

noncomputable section

namespace Cert.ReferenceIdeal.ArrayValue

open Cert.ReferenceIdeal Cert.ReferenceIdeal.Gen Idealize.ShloMosaic Idealize.ShloMosaic.TcCoe Idealize.SL.Sem
open Idealize.ShloMosaic.ValueIdx Cert.LayerNorm Idealize.ShloMosaic.StableHlo
open Idealize.ShloMosaic.Pipeline (Dat)

variable (m : (ℓ : Loc nD τ sig) → Buf (Elt Ideal) ℓ) (ρ : Dev nD → PrngReg)

/-- The rows the region finds are the input viewed as rows. -/
theorem rows_eq (c : Dev nD) :
    X m c = shapeCast Mat (m ((c : Thread nD τ).loc main_arg0)) shapeCasts_S32x512x1024_S16384x1024 := by
  show StableHlo.after hostOps0 (fun b => m (c, b)) (Proc.devRef .tc main_v0) = _
  after_results
  rfl

/-- The weight row the region finds is the weight viewed as one row. -/
theorem weight_eq (c : Dev nD) :
    W m c = shapeCast OneRow (m ((c : Thread nD τ).loc main_arg1)) shapeCasts_S1024_S1x1024 := by
  show StableHlo.after hostOps0 (fun b => m (c, b)) (Proc.devRef .tc main_v1) = _
  after_results
  rfl

/-- The bias row the region finds is the bias viewed as one row. -/
theorem bias_eq (c : Dev nD) :
    B m c = shapeCast OneRow (m ((c : Thread nD τ).loc main_arg2)) shapeCasts_S1024_S1x1024 := by
  show StableHlo.after hostOps0 (fun b => m (c, b)) (Proc.devRef .tc main_v2) = _
  after_results
  rfl

/-- The program's result after the lines that follow the region. -/
theorem result_eq (c : Dev nD) :
    Pipeline.afterTail₀ cfgs (dats m) 0 (V0 m) [hostOps1] c main_v4
      = wholeD shapeCasts_S32x512x1024_S16384x1024 shapeCasts_S1024_S1x1024 shapeCasts_S16384x1024_S32x512x1024
          (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = rowsD (X m c) (W m c) (B m c) :=
    (Pipeline.withArrays_arr spec0 launch0.win.arr_inj c _ _ 3).trans (final m c)
  rw [hw, rows_eq, weight_eq, bias_eq]
  rfl

/-- Every weakly fair execution of the two-pass program terminates with its result at the two-pass whole-array function
    of the arguments and the arguments as launched. -/
theorem run : θ_run defs (onTc (τ := τ) (main (F := Ideal))) ⟨m, fun _ => 0, ρ⟩ fun r => ∀ c : Dev nD,
      r.2.mem ((c : Thread nD τ).loc main_v4)
        = wholeD shapeCasts_S32x512x1024_S16384x1024 shapeCasts_S1024_S1x1024 shapeCasts_S16384x1024_S32x512x1024
            (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.ReferenceIdeal.ArrayValue

end
-- ==== Proof.Finite.lean ====
/-
  What the precondition says of the input: every entry is a real number.

  The precondition is the conjunction of three tests, one per argument, each of the form: all entries have absolute
  value below the word +∞.  On the extended reals the absolute value of x is max x (−x), which is +∞ at both
  infinities; so an entry that passes the test is neither, and is a real number.  Only the first argument's test
  is needed here.
-/
import proofs.«151484_g2000305710958396_pallaspilot1_78_2_alg».proof.Pre_finite_inputs
import proofs.«151484_g2000305710958396_pallaspilot1_78_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.LayerNorm

open Cert.Pre_finite_inputs

/-- A shape with no axis has one index. -/
instance : Subsingleton S_.Idx := ⟨fun a b => funext fun d => d.elim0⟩

/-- The word 0x7F800000 is +∞. -/
theorem ofBits_top : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first argument is a real number. -/
theorem input_real (A0 : FVec Ideal S32x512x1024 .f32) (A1 A2 : FVec Ideal S1024 .f32)
    (h : fn (F := Ideal) A0 A1 A2 = fun _ => 1#1) (i : S32x512x1024.Idx) : ∃ r : ℝ, A0 i = (r : EReal) := by
  have h0 := congrFun h ValueIdx.ix0
  dsimp only [fn] at h0
  obtain ⟨h01, -⟩ := IntOp.andi_eq_one.1 h0
  obtain ⟨hA, -⟩ := IntOp.andi_eq_one.1 h01
  have hi := Host.reduce_andi_all _ _ _ _ _ hA i
  simp only [cmpf, Host.absf, Ideal.cmpf_def, Ideal.hostAbsf_def, Ideal.absf_def, broadcastInDim, constant,
    Ideal.ofBits_def, ofBits_top, Ideal.cmp] at hi
  refine real_of_abs_lt_top (A0 i) ?_
  by_contra hn
  rw [decide_eq_false hn] at hi
  exact absurd hi (by decide)

end Cert.LayerNorm

end
-- ==== Proof.lean ====
/-
  Layer normalisation over the last axis of a [32, 512, 1024] array, computed two ways, gives one result on the
  extended reals whenever the inputs are finite.

  Both programs view the input as 16384 rows of 1024 entries, run one pipelined region over blocks of rows (512 rows
  a block in one program, 1024 in the other), and view the rows as [32, 512, 1024] again.  Inside a block every row
  is normalised by itself, so the block size does not matter: each program's result is one whole-array function of
  the arguments (Proof/KernelRun.lean, Proof/ReferenceRun.lean, over the generated frame runs).  The two functions
  differ in how a row's mean and variance are formed: Σx/1024 as a product with 2⁻¹⁰ or as a quotient by 1024, and
  the variance as Σx²/1024 − mean² or as Σ(x − mean)²/1024.  These agree on rows of real numbers (Proof/RowMath.lean),
  and the precondition makes every entry of the input a real number (Proof/Finite.lean).

  The three frames are the generated ones; the idealisation rewrote nothing, so there is nothing to preserve.
-/
import proofs.«151484_g2000305710958396_pallaspilot1_78_2_alg».proof.Defs
import proofs.«151484_g2000305710958396_pallaspilot1_78_2_alg».proof.Proof.Gen.Kernel
import proofs.«151484_g2000305710958396_pallaspilot1_78_2_alg».proof.Proof.Gen.Kernel.Skeleton
import proofs.«151484_g2000305710958396_pallaspilot1_78_2_alg».proof.Proof.Gen.Kernel.Launch
import proofs.«151484_g2000305710958396_pallaspilot1_78_2_alg».proof.Proof.Gen.Kernel.Points
import proofs.«151484_g2000305710958396_pallaspilot1_78_2_alg».proof.Proof.Gen.Kernel.Frame
import proofs.«151484_g2000305710958396_pallaspilot1_78_2_alg».proof.Proof.Gen.KernelIdeal
import proofs.«151484_g2000305710958396_pallaspilot1_78_2_alg».proof.Proof.Gen.KernelIdeal.Skeleton
import proofs.«151484_g2000305710958396_pallaspilot1_78_2_alg».proof.Proof.Gen.KernelIdeal.Launch
import proofs.«151484_g2000305710958396_pallaspilot1_78_2_alg».proof.Proof.Gen.KernelIdeal.Points
import proofs.«151484_g2000305710958396_pallaspilot1_78_2_alg».proof.Proof.Gen.KernelIdeal.Frame
import proofs.«151484_g2000305710958396_pallaspilot1_78_2_alg».proof.Proof.Gen.ReferenceIdeal
import proofs.«151484_g2000305710958396_pallaspilot1_78_2_alg».proof.Proof.Gen.ReferenceIdeal.Skeleton
import proofs.«151484_g2000305710958396_pallaspilot1_78_2_alg».proof.Proof.Gen.ReferenceIdeal.Launch
import proofs.«151484_g2000305710958396_pallaspilot1_78_2_alg».proof.Proof.Gen.ReferenceIdeal.Points
import proofs.«151484_g2000305710958396_pallaspilot1_78_2_alg».proof.Proof.Gen.ReferenceIdeal.Frame
import proofs.«151484_g2000305710958396_pallaspilot1_78_2_alg».proof.Proof.Gen.Pre_finite_inputs
import proofs.«151484_g2000305710958396_pallaspilot1_78_2_alg».proof.Proof.KernelRun
import proofs.«151484_g2000305710958396_pallaspilot1_78_2_alg».proof.Proof.ReferenceRun
import proofs.«151484_g2000305710958396_pallaspilot1_78_2_alg».proof.Proof.Finite
import Idealize.ShloMosaic.Adequacy
import Idealize.ShloMosaic.Init

noncomputable section

namespace Cert.Proof

open Idealize.ShloMosaic Idealize.SL.Sem Cert.LayerNorm

/-- The word-level program runs and keeps its arguments. -/
theorem frame_kernel : Cert.frame_Kernel := fun m ρ _ => Cert.Kernel.Gen.frame m ρ

/-- So does the one-pass program on the extended reals. -/
theorem frame_kernelIdeal : Cert.frame_KernelIdeal := fun m ρ _ => Cert.KernelIdeal.Gen.frame m ρ

/-- So does the two-pass program on the extended reals. -/
theorem frame_referenceIdeal : Cert.frame_ReferenceIdeal := fun m ρ _ => Cert.ReferenceIdeal.Gen.frame m ρ

/-- The idealisation rewrote no operation. -/
theorem preserves : Cert.preserves_Kernel_KernelIdeal := trivial

/-- From memories that agree on the arguments, with every input finite, the two programs end with equal results: the
    one-pass and the two-pass whole-array functions of an input of real numbers are one function. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun r h c => ⟨(h c).1.trans ?_, (h c).2⟩)
    (Cert.ReferenceIdeal.ArrayValue.run m' ρ')
  rw [(hagree c).1, (hagree c).2.1, (hagree c).2.2]
  exact wholeD_eq_wholeS _ _ _ _ (input_real _ _ _ (hpre c)) _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
